-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x8 : Shape := ⟨2, ![4096, 8]⟩
abbrev S8x4096 : Shape := ⟨2, ![8, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S8x4096 : S_.BroadcastsInDim S8x4096 (![] : Fin 0 → Fin S8x4096.rank)
  reducesTo_S8x4096_S_d0_1 : S8x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x8 .f32) (main_arg3 : FVec F S8x4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096x8 : Shape := ⟨2, ![4096, 8]⟩
abbrev S8x4096 : Shape := ⟨2, ![8, 4096]⟩
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S1024x4096 : Shape := ⟨2, ![1024, 4096]⟩
abbrev S1024x8 : Shape := ⟨2, ![1024, 8]⟩
abbrev S1x1024 : Shape := ⟨2, ![1, 1024]⟩
abbrev S512x1024 : Shape := ⟨2, ![512, 1024]⟩
abbrev S512x8 : Shape := ⟨2, ![512, 8]⟩

abbrev nBuf : Space → Nat
  | .hbm => 13
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x8, .f32⟩
  | .hbm, ⟨3, _⟩ => ⟨S8x4096, .f32⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S4096x4096, .bf16⟩
  | .hbm, ⟨8, _⟩ => ⟨S4096x8, .bf16⟩
  | .hbm, ⟨9, _⟩ => ⟨S8x4096, .bf16⟩
  | .hbm, ⟨10, _⟩ => ⟨S1x4096, .f32⟩
  | .hbm, ⟨11, _⟩ => ⟨S8192x4096, .f32⟩
  | .hbm, ⟨12, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S8x4096, .bf16⟩
  | .local _ .vmem, ⟨5, _⟩ => ⟨S1024x8, .bf16⟩
  | .local _ .vmem, ⟨6, _⟩ => ⟨S1024x8, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x8 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S512x4096_S1024x4096_S512x1024_1_1_0_0_n_n_wf : DotDims.WF S512x4096 S1024x4096 S512x1024 [1] [1] [0] [0] [] []
  dot_S512x4096_S8x4096_S512x8_1_1_0_0_n_n_wf : DotDims.WF S512x4096 S8x4096 S512x8 [1] [1] [0] [0] [] []
  dot_S512x8_S1024x8_S512x1024_1_1_0_0_n_n_wf : DotDims.WF S512x8 S1024x8 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .bf16 = 32 ∨ (Rect.block (s := S8x4096) S8x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S4096x8.size a
  hwx0_3 : ∀ i : grid0.Coords, EltTy.bits .bf16 = 32 ∨ (Rect.block (s := S4096x8) S1024x8.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf
def dot_S512x4096_S8x4096_S512x8_1_1_0_0_n_n : DotDims S512x4096 S8x4096 S512x8 where
  lhsContracting := [1]
  rhsContracting := [1]
  lhsNonContracting := [0]
  rhsNonContracting := [0]
  lhsBatch := []
  rhsBatch := []
  wf := dot_S512x4096_S8x4096_S512x8_1_1_0_0_n_n_wf
def dot_S512x8_S1024x8_S512x1024_1_1_0_0_n_n : DotDims S512x8 S1024x8 S512x1024 where
  lhsContracting := [1]
  rhsContracting := [1]
  lhsNonContracting := [0]
  rhsNonContracting := [0]
  lhsBatch := []
  rhsBatch := []
  wf := dot_S512x8_S1024x8_S512x1024_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x8 : Shape := ⟨2, ![4096, 8]⟩
abbrev S8x4096 : Shape := ⟨2, ![8, 4096]⟩
abbrev S4096 : Shape := ⟨1, ![4096]⟩
abbrev S1x1x4096 : Shape := ⟨3, ![1, 1, 4096]⟩
abbrev S4x2048x8 : Shape := ⟨3, ![4, 2048, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x8, .f32⟩
  | .hbm, ⟨3, _⟩ => ⟨S8x4096, .f32⟩
  | .hbm, ⟨4, _⟩ => ⟨S4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x8, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf

class Facts : Prop extends Facts₀ where

variable [Facts]
-- ==== Proof.MatmulRows.lean ====
/-
  The three matrix products of the kernel body, each read at one entry of its result.

  Every product of the body contracts the LAST axis of both operands (a product with a transpose,
  l · rᵀ): accumulated into the zero matrix, entry (p, q) of the product of l : [M, K] and
  r : [N, K] is the sum over k of l[p, k] · r[q, k], on the extended reals, with no rounding and
  no order of summation left in it.  The three instances are
    x · Wᵀ    ([512, 4096] with [1024, 4096]),
    x · Bᵀ    ([512, 4096] with [8, 4096]),
    u · Aᵀ    ([512, 8] with [1024, 8]).
-/
import proofs.«140179_j60129542144689_1_alg».proof.Proof.Gen.KernelIdeal
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The dimension numbers of x · Wᵀ. -/
abbrev dW := dot_S512x4096_S1024x4096_S512x1024_1_1_0_0_n_n
/-- The dimension numbers of x · Bᵀ. -/
abbrev dB := dot_S512x4096_S8x4096_S512x8_1_1_0_0_n_n
/-- The dimension numbers of u · Aᵀ. -/
abbrev dA := dot_S512x8_S1024x8_S512x1024_1_1_0_0_n_n

/-! ## x · Wᵀ -/

/-- The left operand's row is the result's row. -/
theorem dW_lhs0 (i : S512x1024.Idx) (q : dW.contr.Idx) : (dW.lhsIdx i q 0).val = (i 0).val := by
  unfold DotDims.lhsIdx
  rw [dif_neg (show ¬(0 : Fin S512x4096.rank) ∈ dW.lhsBatch by decide), dif_pos (show (0 : Fin S512x4096.rank) ∈ dW.lhsNonContracting by decide)]
  rfl
/-- The right operand's row is the result's column. -/
theorem dW_rhs0 (i : S512x1024.Idx) (q : dW.contr.Idx) : (dW.rhsIdx i q 0).val = (i 1).val := by
  unfold DotDims.rhsIdx
  rw [dif_neg (show ¬(0 : Fin S1024x4096.rank) ∈ dW.rhsBatch by decide), dif_pos (show (0 : Fin S1024x4096.rank) ∈ dW.rhsNonContracting by decide)]
  rfl

/-- Entry (p, q) of x · Wᵀ is the sum over k of x[p, k] · W[q, k]. -/
theorem xWt_apply (l : FVec Ideal S512x4096 .bf16) (r : FVec Ideal S1024x4096 .bf16) (p : Fin 512) (q : Fin 1024) :
    matmul dW none l r (constant (F := Ideal) S512x1024 .f32 0x00000000#32) (ix2 p q) = ∑ k : Fin 4096, l (ix2 p k) * r (ix2 q k) := by
  simp only [matmul]
  rw [Ideal.matmul_constant_zero_apply, ← Equiv.sum_comp (contrEquiv1 dW 4096 rfl rfl).symm]
  refine Finset.sum_congr rfl fun k _ => ?_
  have hk := contrEquiv1_symm_val dW 4096 rfl rfl k
  have el : dW.lhsIdx (ix2 p q) ((contrEquiv1 dW 4096 rfl rfl).symm k) = ix2 p k := funext fun a => Fin.ext (by
    match a with
    | ⟨0, _⟩ => exact dW_lhs0 _ _
    | ⟨1, _⟩ => exact (dW.lhsIdx_val_of_single rfl _ _).trans hk)
  have er : dW.rhsIdx (ix2 p q) ((contrEquiv1 dW 4096 rfl rfl).symm k) = ix2 q k := funext fun a => Fin.ext (by
    match a with
    | ⟨0, _⟩ => exact dW_rhs0 _ _
    | ⟨1, _⟩ => exact (dW.rhsIdx_val_of_single rfl _ _).trans hk)
  rw [el, er]

/-! ## x · Bᵀ -/

theorem dB_lhs0 (i : S512x8.Idx) (q : dB.contr.Idx) : (dB.lhsIdx i q 0).val = (i 0).val := by
  unfold DotDims.lhsIdx
  rw [dif_neg (show ¬(0 : Fin S512x4096.rank) ∈ dB.lhsBatch by decide), dif_pos (show (0 : Fin S512x4096.rank) ∈ dB.lhsNonContracting by decide)]
  rfl
theorem dB_rhs0 (i : S512x8.Idx) (q : dB.contr.Idx) : (dB.rhsIdx i q 0).val = (i 1).val := by
  unfold DotDims.rhsIdx
  rw [dif_neg (show ¬(0 : Fin S8x4096.rank) ∈ dB.rhsBatch by decide), dif_pos (show (0 : Fin S8x4096.rank) ∈ dB.rhsNonContracting by decide)]
  rfl

/-- Entry (p, j) of x · Bᵀ is the sum over k of x[p, k] · B[j, k]. -/
theorem xBt_apply (l : FVec Ideal S512x4096 .bf16) (r : FVec Ideal S8x4096 .bf16) (p : Fin 512) (j : Fin 8) :
    matmul dB none l r (constant (F := Ideal) S512x8 .f32 0x00000000#32) (ix2 p j) = ∑ k : Fin 4096, l (ix2 p k) * r (ix2 j k) := by
  simp only [matmul]
  rw [Ideal.matmul_constant_zero_apply, ← Equiv.sum_comp (contrEquiv1 dB 4096 rfl rfl).symm]
  refine Finset.sum_congr rfl fun k _ => ?_
  have hk := contrEquiv1_symm_val dB 4096 rfl rfl k
  have el : dB.lhsIdx (ix2 p j) ((contrEquiv1 dB 4096 rfl rfl).symm k) = ix2 p k := funext fun a => Fin.ext (by
    match a with
    | ⟨0, _⟩ => exact dB_lhs0 _ _
    | ⟨1, _⟩ => exact (dB.lhsIdx_val_of_single rfl _ _).trans hk)
  have er : dB.rhsIdx (ix2 p j) ((contrEquiv1 dB 4096 rfl rfl).symm k) = ix2 j k := funext fun a => Fin.ext (by
    match a with
    | ⟨0, _⟩ => exact dB_rhs0 _ _
    | ⟨1, _⟩ => exact (dB.rhsIdx_val_of_single rfl _ _).trans hk)
  rw [el, er]

/-! ## u · Aᵀ -/

theorem dA_lhs0 (i : S512x1024.Idx) (q : dA.contr.Idx) : (dA.lhsIdx i q 0).val = (i 0).val := by
  unfold DotDims.lhsIdx
  rw [dif_neg (show ¬(0 : Fin S512x8.rank) ∈ dA.lhsBatch by decide), dif_pos (show (0 : Fin S512x8.rank) ∈ dA.lhsNonContracting by decide)]
  rfl
theorem dA_rhs0 (i : S512x1024.Idx) (q : dA.contr.Idx) : (dA.rhsIdx i q 0).val = (i 1).val := by
  unfold DotDims.rhsIdx
  rw [dif_neg (show ¬(0 : Fin S1024x8.rank) ∈ dA.rhsBatch by decide), dif_pos (show (0 : Fin S1024x8.rank) ∈ dA.rhsNonContracting by decide)]
  rfl

/-- Entry (p, q) of u · Aᵀ is the sum over j of u[p, j] · A[q, j]. -/
theorem uAt_apply (l : FVec Ideal S512x8 .bf16) (r : FVec Ideal S1024x8 .bf16) (p : Fin 512) (q : Fin 1024) :
    matmul dA none l r (constant (F := Ideal) S512x1024 .f32 0x00000000#32) (ix2 p q) = ∑ j : Fin 8, l (ix2 p j) * r (ix2 q j) := by
  simp only [matmul]
  rw [Ideal.matmul_constant_zero_apply, ← Equiv.sum_comp (contrEquiv1 dA 8 rfl rfl).symm]
  refine Finset.sum_congr rfl fun k _ => ?_
  have hk := contrEquiv1_symm_val dA 8 rfl rfl k
  have el : dA.lhsIdx (ix2 p q) ((contrEquiv1 dA 8 rfl rfl).symm k) = ix2 p k := funext fun a => Fin.ext (by
    match a with
    | ⟨0, _⟩ => exact dA_lhs0 _ _
    | ⟨1, _⟩ => exact (dA.lhsIdx_val_of_single rfl _ _).trans hk)
  have er : dA.rhsIdx (ix2 p q) ((contrEquiv1 dA 8 rfl rfl).symm k) = ix2 q k := funext fun a => Fin.ext (by
    match a with
    | ⟨0, _⟩ => exact dA_rhs0 _ _
    | ⟨1, _⟩ => exact (dA.rhsIdx_val_of_single rfl _ _).trans hk)
  rw [el, er]

end Cert.KernelIdeal.Body

end
-- ==== Proof.Spec.lean ====
/-
  The function both programs compute: a linear layer with a low-rank update,

      out[b, s, o] = (∑ₖ x[b,s,k] · W[o,k]  +  bias[o])  +  (∑ⱼ (∑ₖ x[b,s,k] · B[j,k]) · A[o,j]) · (α / r),

  with α / r = 32 / 8 = 4, over the extended reals, in exactly this grouping: the base product plus the
  bias first, then the scaled low-rank term added to it.  Both programs associate the additions this
  way and multiply the factors of every product in this order, so no law of the extended reals beyond
  re-indexing a sum is needed to join them, and no finiteness of the inputs.

  `entry` is one output entry as a function of the rows it depends on; `flat` is the layer over the
  activations flattened to [8192, 4096] (what the tiled kernel writes), `layer` the layer over the
  [4, 2048, 4096] activations (what both programs return); `unflatten_flat` says that reshaping the
  flat result back to three axes gives `layer` of the unflattened activations: row b · 2048 + s of the
  flat arrays is row (b, s).
-/
import Idealize.ShloMosaic.PureOps.Ideal
import Idealize.ShloMosaic.Lib.ValueIdx
import Idealize.ShloMosaic.Lib.Pipeline.Value

noncomputable section

namespace Cert.LoRA

open Idealize.ShloMosaic Idealize.ShloMosaic.ValueIdx

/-- The scale α / r = 4, as the f32 literal both programs carry. -/
abbrev scale : EReal := Ideal.ofBits .f32 0x40800000#32

/-- One output entry from the rows it depends on: the activation row `xr`, the weight row `wr`, the bias
    entry `β`, the eight rows `br` of the down-projection and the row `ar` of the up-projection. -/
def entry (xr wr : Fin 4096 → EReal) (β : EReal) (br : Fin 8 → Fin 4096 → EReal) (ar : Fin 8 → EReal) : EReal :=
  ((∑ k : Fin 4096, xr k * wr k) + β) + (∑ j : Fin 8, (∑ k : Fin 4096, xr k * br j k) * ar j) * scale

/-- Equal rows give equal entries. -/
theorem entry_congr {xr xr' wr wr' : Fin 4096 → EReal} {β β' : EReal} {br br' : Fin 8 → Fin 4096 → EReal} {ar ar' : Fin 8 → EReal}
    (hx : xr = xr') (hw : wr = wr') (hβ : β = β') (hb : br = br') (ha : ar = ar') :
    entry xr wr β br ar = entry xr' wr' β' br' ar' := by
  subst hx hw hβ hb ha; rfl

abbrev X3 : Shape := ⟨3, ![4, 2048, 4096]⟩
abbrev X2 : Shape := ⟨2, ![8192, 4096]⟩
abbrev Wt : Shape := ⟨2, ![4096, 4096]⟩
abbrev At : Shape := ⟨2, ![4096, 8]⟩
abbrev Bt : Shape := ⟨2, ![8, 4096]⟩
abbrev Bias1 : Shape := ⟨1, ![4096]⟩
abbrev Bias2 : Shape := ⟨2, ![1, 4096]⟩

/-- The layer over activations flattened to [8192, 4096] and the bias as a row [1, 4096]. -/
def flat (x : X2.Idx → EReal) (w : Wt.Idx → EReal) (b : Bt.Idx → EReal) (a : At.Idx → EReal) (bias : Bias2.Idx → EReal) :
    X2.Idx → EReal := fun i =>
  entry (fun k => x (ix2 (i 0) k)) (fun k => w (ix2 (i 1) k)) (bias (ix2 0 (i 1))) (fun j k => b (ix2 j k)) (fun j => a (ix2 (i 1) j))

/-- The layer over the [4, 2048, 4096] activations. -/
def layer (x : X3.Idx → EReal) (w : Wt.Idx → EReal) (a : At.Idx → EReal) (b : Bt.Idx → EReal) (bias : Bias1.Idx → EReal) :
    X3.Idx → EReal := fun i =>
  entry (fun k => x (ix3 (i 0) (i 1) k)) (fun k => w (ix2 (i 2) k)) (bias (ix1 (i 2))) (fun j k => b (ix2 j k)) (fun j => a (ix2 (i 2) j))

/-- Row b · 2048 + s of the flattened activations is row (b, s). -/
theorem flatten_apply (x : X3.Idx → EReal) (h : X3.ShapeCasts X2) (b : Fin 4) (s : Fin 2048) (k : Fin 4096) (r : Fin 8192)
    (hr : r.val = b.val * 2048 + s.val) : shapeCast X2 x h (ix2 r k) = x (ix3 b s k) :=
  shapeCast_apply x h (ix2 r k) (ix3 b s k) (by
    rw [Shape.rowMajor_val_three, Shape.rowMajor_val_two]
    show (b.val * 2048 + s.val) * 4096 + k.val = r.val * 4096 + k.val
    rw [hr])

/-- The bias as a row: entry (0, o) is entry o. -/
theorem biasRow_apply (bias : Bias1.Idx → EReal) (h : Bias1.ShapeCasts Bias2) (o : Fin 4096) :
    shapeCast Bias2 bias h (ix2 0 o) = bias (ix1 o) :=
  shapeCast_apply bias h (ix2 0 o) (ix1 o) (by
    rw [Shape.rowMajor_val_one, Shape.rowMajor_val_two]
    show o.val = 0 * 4096 + o.val
    omega)

/-- Reshaping the flat layer of the flattened activations back to three axes is the layer. -/
theorem unflatten_flat (x : X3.Idx → EReal) (w : Wt.Idx → EReal) (a : At.Idx → EReal) (b : Bt.Idx → EReal) (bias : Bias1.Idx → EReal)
    (h1 : X3.ShapeCasts X2) (h2 : Bias1.ShapeCasts Bias2) (h3 : X2.ShapeCasts X3) :
    shapeCast X3 (flat (shapeCast X2 x h1) w b a (shapeCast Bias2 bias h2)) h3 = layer x w a b bias := by
  funext i
  obtain ⟨p, s, o, rfl⟩ : ∃ (p : Fin 4) (s : Fin 2048) (o : Fin 4096), i = ix3 p s o := ⟨i 0, i 1, i 2, eq_ix3 i⟩
  have hlt : p.val * 2048 + s.val < 8192 := by have := p.isLt; have := s.isLt; omega
  refine (shapeCast_apply _ h3 (ix3 p s o) (ix2 ⟨p.val * 2048 + s.val, hlt⟩ o) (by
    rw [Shape.rowMajor_val_three, Shape.rowMajor_val_two]
    show (p.val * 2048 + s.val) * 4096 + o.val = (p.val * 2048 + s.val) * 4096 + o.val
    rfl)).trans ?_
  show entry (fun k => shapeCast X2 x h1 (ix2 ⟨p.val * 2048 + s.val, hlt⟩ k)) (fun k => w (ix2 o k)) (shapeCast Bias2 bias h2 (ix2 0 o))
      (fun j k => b (ix2 j k)) (fun j => a (ix2 o j))
    = entry (fun k => x (ix3 p s k)) (fun k => w (ix2 o k)) (bias (ix1 o)) (fun j k => b (ix2 j k)) (fun j => a (ix2 o j))
  rw [biasRow_apply bias h2 o]
  refine congrArg (fun xr => entry xr _ _ _ _) (funext fun k => ?_)
  exact flatten_apply x h1 p s k _ rfl

end Cert.LoRA

end
-- ==== Proof.Payload.lean ====
/-
  The body's stored value at one entry of the output block.

  With x : [512, 4096] the block of activations, W : [1024, 4096] the block of weights,
  B : [8, 4096] the whole down-projection, A : [1024, 8] the block of the up-projection and
  bias : [1, 1024] the block of the bias row, the body stores, at (p, q),

      (∑ₖ x[p,k] · W[q,k]  +  bias[0,q])  +  (∑ⱼ (∑ₖ x[p,k] · B[j,k]) · A[q,j]) · 4

  which is `LoRA.entry` of the rows (p of x, q of W, all of B, q of A) and the bias entry q: the three products are sums (no rounding is left at the ideal values, and the
  change of format between the second and third product is the identity), the bias row is repeated
  down the rows, and the scale is the splat of the literal 4.
-/
import proofs.«140179_j60129542144689_1_alg».proof.Proof.Gen.KernelIdeal.Skeleton
import proofs.«140179_j60129542144689_1_alg».proof.Proof.MatmulRows
import proofs.«140179_j60129542144689_1_alg».proof.Proof.Spec
import Idealize.ShloMosaic.Lib.Pipeline.Value

noncomputable section

namespace Cert.KernelIdeal.Body

open Cert.KernelIdeal Cert.KernelIdeal.Gen Idealize.ShloMosaic Idealize.ShloMosaic.ValueIdx

/-- The bias row repeated down the 512 rows of the block reads, at (p, q), the row's entry q. -/
theorem biasRows_apply (v : FVec Ideal S1x1024 .f32) (p : Fin 512) (q : Fin 1024) :
    broadcastTo S512x1024 v broadcasts_S1x1024_S512x1024 (ix2 p q) = v (ix2 0 q) :=
  broadcastTo_apply v broadcasts_S1x1024_S512x1024 (ix2 p q) (ix2 0 q) (fun a => match a with
    | ⟨0, _⟩ => rfl
    | ⟨1, _⟩ => rfl)

/-- The stored value at (p, q) is the layer's entry from row p of x, row q of W, B, row q of A and bias entry q. -/
theorem pay_apply (x0 : Vec Ideal S512x4096 .bf16) (x1 : Vec Ideal S1024x4096 .bf16) (x2 : Vec Ideal S8x4096 .bf16)
    (x3 : Vec Ideal S1024x8 .bf16) (x4 : Vec Ideal S1x1024 .f32) (p : Fin 512) (q : Fin 1024) :
    k0_pay1 x0 x1 x2 x3 x4 (ix2 p q)
      = LoRA.entry (fun k => x0 (ix2 p k)) (fun k => x1 (ix2 q k)) (x4 (ix2 0 q)) (fun j k => x2 (ix2 j k)) (fun j => x3 (ix2 q j)) := by
  unfold k0_pay1 LoRA.entry
  simp only [shapeCast_self]
  rw [addf_apply, addf_apply, mulf_apply, broadcast_apply, xWt_apply, biasRows_apply, uAt_apply]
  refine congrArg (fun z => _ + z * _) (Finset.sum_congr rfl fun j _ => ?_)
  rw [truncf_apply, xBt_apply]

end Cert.KernelIdeal.Body

end
-- ==== Proof.Blocks.lean ====
/-
  From the output blocks to the whole output array of the tiled call.

  The grid has 4 × 16 = 64 points; point t works on the row tile t mod 16 (512 rows of the flattened
  activations) and the column tile t div 16 (1024 output features).  Its input blocks are rows
  512·(t mod 16) … of x (all 4096 columns), rows 1024·(t div 16) … of W and of A, all of B, and columns
  1024·(t div 16) … of the bias row; the block it writes back is rows 512·(t mod 16) …, columns
  1024·(t div 16) … of the output.  Entry (p, q) of that block is the layer's entry for the output
  index (512·(t mod 16) + p, 1024·(t div 16) + q): what point t writes back is block t of the one
  function `LoRA.flat` of the arrays the call was launched on.  The 64 blocks tile the [8192, 4096]
  output (index (r, o) lies in the block of the point 16·(o div 1024) + r div 512), so after the run the
  whole array is `LoRA.flat` of those arrays.
-/
import proofs.«140179_j60129542144689_1_alg».proof.Proof.Gen.KernelIdeal.Frame
import proofs.«140179_j60129542144689_1_alg».proof.Proof.Payload
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem zero_off : (![0, 0] : Fin 2 → Nat) = fun _ => 0 := funext fun a => by fin_cases a <;> rfl

/-- The index maps over the grid: point t is row tile t mod 16 and column tile t div 16. -/
theorem tiles : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = 0 ∧ win0_2.index t (1 : Fin 2) = 0
    ∧ win0_3.index t (0 : Fin 2) = t.val / 16 ∧ win0_3.index t (1 : Fin 2) = 0
    ∧ win0_4.index t (0 : Fin 2) = 0 ∧ win0_4.index t (1 : Fin 2) = t.val / 16
    ∧ win0_5.index t (0 : Fin 2) = t.val % 16 ∧ win0_5.index t (1 : Fin 2) = t.val / 16 :=
  (by decide +kernel : ∀ t : Fin grid0.N, _)

theorem point_lt (t : Fin cfg0.N) : t.val < 64 := lt_of_lt_of_eq t.isLt N_0

/-! ## Each input block, read where the arrays hold it -/

/-- Row p of the activation block is row 512·(t mod 16) + p of the flattened activations. -/
theorem xblk_apply (c : Dev nD) (t : Fin cfg0.N) (p : Fin 512) (k : Fin 4096) (P : Fin 8192)
    (hP : P.val = t.val % 16 * 512 + p.val) : iblk m c 0 t (ix2 p k) = V m c main_v1 (ix2 P k) := by
  obtain ⟨e0, e1, -⟩ := tiles t
  show V m c main_v1 (((cfg0.win 0).blk t).view.emb (ix2 p k)) = V m c main_v1 (ix2 P k)
  refine congrArg (V m c main_v1) (funext fun a => Fin.ext ?_)
  match a with
  | ⟨0, _⟩ => show win0_0.index t (0 : Fin 2) * 512 + 1 * p.val = P.val; omega
  | ⟨1, _⟩ => show win0_0.index t (1 : Fin 2) * 4096 + 1 * k.val = k.val; omega

/-- Row q of the weight block is row 1024·(t div 16) + q of the weights. -/
theorem wblk_apply (c : Dev nD) (t : Fin cfg0.N) (q : Fin 1024) (k : Fin 4096) (Q : Fin 4096)
    (hQ : Q.val = t.val / 16 * 1024 + q.val) : iblk m c 1 t (ix2 q k) = V m c main_v2 (ix2 Q k) := by
  obtain ⟨-, -, e0, e1, -⟩ := tiles t
  show V m c main_v2 (((cfg0.win 1).blk t).view.emb (ix2 q k)) = V m c main_v2 (ix2 Q k)
  refine congrArg (V m c main_v2) (funext fun a => Fin.ext ?_)
  match a with
  | ⟨0, _⟩ => show win0_1.index t (0 : Fin 2) * 1024 + 1 * q.val = Q.val; omega
  | ⟨1, _⟩ => show win0_1.index t (1 : Fin 2) * 4096 + 1 * k.val = k.val; omega

/-- The down-projection's block is the whole array at every point. -/
theorem bblk_apply (c : Dev nD) (t : Fin cfg0.N) (j : Fin 8) (k : Fin 4096) :
    iblk m c 2 t (ix2 j k) = V m c main_v4 (ix2 j k) := by
  obtain ⟨-, -, -, -, e0, e1, -⟩ := tiles t
  show V m c main_v4 (((cfg0.win 2).blk t).view.emb (ix2 j k)) = V m c main_v4 (ix2 j k)
  refine congrArg (V m c main_v4) (funext fun a => Fin.ext ?_)
  match a with
  | ⟨0, _⟩ => show win0_2.index t (0 : Fin 2) * 8 + 1 * j.val = j.val; omega
  | ⟨1, _⟩ => show win0_2.index t (1 : Fin 2) * 4096 + 1 * k.val = k.val; omega

/-- Row q of the up-projection's block is row 1024·(t div 16) + q of the up-projection. -/
theorem ablk_apply (c : Dev nD) (t : Fin cfg0.N) (q : Fin 1024) (j : Fin 8) (Q : Fin 4096)
    (hQ : Q.val = t.val / 16 * 1024 + q.val) : iblk m c 3 t (ix2 q j) = V m c main_v3 (ix2 Q j) := by
  obtain ⟨-, -, -, -, -, -, e0, e1, -⟩ := tiles t
  show V m c main_v3 (((cfg0.win 3).blk t).view.emb (ix2 q j)) = V m c main_v3 (ix2 Q j)
  refine congrArg (V m c main_v3) (funext fun a => Fin.ext ?_)
  match a with
  | ⟨0, _⟩ => show win0_3.index t (0 : Fin 2) * 1024 + 1 * q.val = Q.val; omega
  | ⟨1, _⟩ => show win0_3.index t (1 : Fin 2) * 8 + 1 * j.val = j.val; omega

/-- Entry q of the bias block is entry 1024·(t div 16) + q of the bias row. -/
theorem biasblk_apply (c : Dev nD) (t : Fin cfg0.N) (q : Fin 1024) (Q : Fin 4096)
    (hQ : Q.val = t.val / 16 * 1024 + q.val) : iblk m c 4 t (ix2 0 q) = V m c main_v5 (ix2 0 Q) := by
  obtain ⟨-, -, -, -, -, -, -, -, e0, e1, -⟩ := tiles t
  show V m c main_v5 (((cfg0.win 4).blk t).view.emb (ix2 0 q)) = V m c main_v5 (ix2 0 Q)
  refine congrArg (V m c main_v5) (funext fun a => Fin.ext ?_)
  match a with
  | ⟨0, _⟩ => show win0_4.index t (0 : Fin 2) * 1 + 1 * 0 = 0; omega
  | ⟨1, _⟩ => show win0_4.index t (1 : Fin 2) * 1024 + 1 * q.val = Q.val; omega

/-! ## What a point writes back -/

/-- What point t writes back is block t of `LoRA.flat` of the arrays the call was launched on. -/
theorem flushed_eq (c : Dev nD) (t : Fin cfg0.N) :
    (dats m 0 c).flushed 5 t = ((cfg0.win 5).blk t).view.read (Elt Ideal)
      (LoRA.flat (V m c main_v1) (V m c main_v2) (V m c main_v4) (V m c main_v3) (V m c main_v5)) := by
  show (cfg0.win 5).cut (grid0.coords t) ((dats m 0 c).after 5 t) = _
  rw [after0_5]
  unfold out0_5
  rw [View.canon_unit_zero zero_off]
  simp only [View.ld_unit_zero (S := S512x4096) zero_off, View.ld_unit_zero (S := S1024x4096) zero_off,
    View.ld_unit_zero (S := S8x4096) zero_off, View.ld_unit_zero (S := S1024x8) zero_off,
    View.ld_unit_zero (S := S1x1024) zero_off]
  obtain ⟨-, -, -, -, -, -, -, -, -, -, e0, e1⟩ := tiles t
  have ht := point_lt t
  funext y
  obtain ⟨p, q, rfl⟩ : ∃ (p : Fin 512) (q : Fin 1024), y = ix2 p q := ⟨y 0, y 1, eq_ix2 y⟩
  have hP : t.val % 16 * 512 + p.val < 8192 := by have := p.isLt; omega
  have hQ : t.val / 16 * 1024 + q.val < 4096 := by have := q.isLt; omega
  have hemb : ((cfg0.win 5).blk t).view.emb (ix2 p q) = ix2 (⟨t.val % 16 * 512 + p.val, hP⟩ : Fin 8192) (⟨t.val / 16 * 1024 + q.val, hQ⟩ : Fin 4096) :=
    funext fun a => Fin.ext (by
      match a with
      | ⟨0, _⟩ => show win0_5.index t (0 : Fin 2) * 512 + 1 * p.val = t.val % 16 * 512 + p.val; omega
      | ⟨1, _⟩ => show win0_5.index t (1 : Fin 2) * 1024 + 1 * q.val = t.val / 16 * 1024 + q.val; omega)
  show k0_pay1 (iblk m c 0 t) (iblk m c 1 t) (iblk m c 2 t) (iblk m c 3 t) (iblk m c 4 t) (ix2 p q)
    = LoRA.flat (V m c main_v1) (V m c main_v2) (V m c main_v4) (V m c main_v3) (V m c main_v5) (((cfg0.win 5).blk t).view.emb (ix2 p q))
  rw [hemb]
  refine (Body.pay_apply (iblk m c 0 t) (iblk m c 1 t) (iblk m c 2 t) (iblk m c 3 t) (iblk m c 4 t) p q).trans ?_
  refine LoRA.entry_congr (funext fun k => ?_) (funext fun k => ?_) ?_ (funext fun j => funext fun k => ?_) (funext fun j => ?_)
  · exact xblk_apply m c t p k _ rfl
  · exact wblk_apply m c t q k _ rfl
  · exact biasblk_apply m c t q _ rfl
  · exact bblk_apply m c t j k
  · exact ablk_apply m c t q j _ rfl

/-! ## The blocks tile the output -/

/-- An index of the output is in point t's block iff each coordinate is in the block's range on its axis. -/
theorem mem_blk (t : Fin cfg0.N) (i : S8192x4096.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6).slice (win0_5.rect t)).set ↔ _
  rw [View.set_slice_whole, Rect.mem_set_unit]
  exact Iff.rfl

/-- Output index (r, o) is in the block of the point 16·(o div 1024) + r div 512, which writes back. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  obtain ⟨t, tv⟩ : ∃ t : Fin cfg0.N, t.val = (i 1).val / 1024 * 16 + (i 0).val / 512 :=
    ⟨⟨(i 1).val / 1024 * 16 + (i 0).val / 512, lt_of_lt_of_eq (by omega : _ < 64) N_0.symm⟩, rfl⟩
  obtain ⟨-, -, -, -, -, -, -, -, -, -, e0, e1⟩ := tiles t
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-! ## The output array after the run -/

/-- After the run the call's output array is `LoRA.flat` of the arrays it was launched on. -/
theorem final (c : Dev nD) :
    (dats m 0 c).arrAt 5 cfg0.N = LoRA.flat (V m c main_v1) (V m c main_v2) (V m c main_v4) (V m c main_v3) (V m c main_v5) :=
  (dats m 0 c).arrAt_eq_of_cover 5 _ (fun t _ => flushed_eq m c t) cover

end Cert.KernelIdeal.Blocks

end
-- ==== Proof.HostSide.lean ====
/-
  The host operations around the tiled call, read at the ideal values.

  Before the call the program flattens the activations [4, 2048, 4096] to [8192, 4096], changes the
  format of the activations, the weights and the two low-rank factors (the identity on extended reals),
  and views the bias [4096] as a row [1, 4096]; after it, it reshapes the call's [8192, 4096] output
  back to [4, 2048, 4096].  So the call is launched on the flattened activations, the weights, the
  factors and the bias row themselves, its output array after the run is `LoRA.flat` of those
  (Blocks.final), and the program's result is that array unflattened: `LoRA.layer` of the arguments.
-/
import proofs.«140179_j60129542144689_1_alg».proof.Proof.Gen.KernelIdeal.Frame
import proofs.«140179_j60129542144689_1_alg».proof.Proof.Blocks
import Idealize.ShloMosaic.Lib.StableHlo.Run

noncomputable section

namespace Cert.KernelIdeal.HostSide

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-! ## The arrays the call is launched on -/

/-- The activations, flattened. -/
theorem x_eq (c : Dev nD) : (V m c main_v1 : S8192x4096.Idx → EReal)
    = shapeCast S8192x4096 (m ((c : Thread nD τ).loc main_arg0)) shapeCasts_S4x2048x4096_S8192x4096 := by
  show StableHlo.after hostOps0 (fun b => m (c, b)) (Proc.devRef .tc main_v1) = _
  after_results
  rfl

/-- The weights. -/
theorem w_eq (c : Dev nD) : (V m c main_v2 : S4096x4096.Idx → EReal) = m ((c : Thread nD τ).loc main_arg1) := by
  show StableHlo.after hostOps0 (fun b => m (c, b)) (Proc.devRef .tc main_v2) = _
  after_results
  rfl

/-- The up-projection A. -/
theorem a_eq (c : Dev nD) : (V m c main_v3 : S4096x8.Idx → EReal) = m ((c : Thread nD τ).loc main_arg2) := by
  show StableHlo.after hostOps0 (fun b => m (c, b)) (Proc.devRef .tc main_v3) = _
  after_results
  rfl

/-- The down-projection B. -/
theorem b_eq (c : Dev nD) : (V m c main_v4 : S8x4096.Idx → EReal) = m ((c : Thread nD τ).loc main_arg3) := by
  show StableHlo.after hostOps0 (fun b => m (c, b)) (Proc.devRef .tc main_v4) = _
  after_results
  rfl

/-- The bias, as a row. -/
theorem bias_eq (c : Dev nD) : (V m c main_v5 : S1x4096.Idx → EReal)
    = shapeCast S1x4096 (m ((c : Thread nD τ).loc main_arg4)) shapeCasts_S4096_S1x4096 := by
  show StableHlo.after hostOps0 (fun b => m (c, b)) (Proc.devRef .tc main_v5) = _
  after_results
  rfl

/-! ## The result -/

/-- The program's result is the call's output array after the run, unflattened. -/
theorem tail_eq (c : Dev nD) : (Pipeline.afterTail₀ cfgs (dats m) 0 (V0 m) [hostOps1] c main_v7 : S4x2048x4096.Idx → EReal)
    = shapeCast S4x2048x4096 ((dats m 0 c).arrAt 5 cfg0.N) shapeCasts_S8192x4096_S4x2048x4096 := by
  unfold Pipeline.afterTail₀
  show StableHlo.after hostOps1 _ (Proc.devRef .tc main_v7) = _
  after_results
  have e := Pipeline.withArrays_arr spec0 launch0.win.arr_inj c (V0 m c) (fun w => (dats m 0 c).arrAt w (cfgs 0).N) 5
  exact congrArg (fun z => shapeCast S4x2048x4096 z shapeCasts_S8192x4096_S4x2048x4096) e

/-- The program's result is the layer of its arguments. -/
theorem result_eq (c : Dev nD) : (Pipeline.afterTail₀ cfgs (dats m) 0 (V0 m) [hostOps1] c main_v7 : S4x2048x4096.Idx → EReal)
    = LoRA.layer (m ((c : Thread nD τ).loc main_arg0)) (m ((c : Thread nD τ).loc main_arg1)) (m ((c : Thread nD τ).loc main_arg2))
        (m ((c : Thread nD τ).loc main_arg3)) (m ((c : Thread nD τ).loc main_arg4)) := by
  refine (tail_eq m c).trans ?_
  rw [Blocks.final m c, x_eq m c, w_eq m c, a_eq m c, b_eq m c, bias_eq m c]
  exact LoRA.unflatten_flat _ _ _ _ _ _ _ _

/-! ## The run, read -/

/-- Every weakly fair execution of the idealized kernel program terminates with its result at the layer of the
    arguments and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v7) = LoRA.layer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.HostSide

end
-- ==== Proof.Reference.lean ====
/-
  The reference, read at one entry of its result.

  The reference computes x · Wᵀ over the three-axis activations, adds the bias repeated over the first two
  axes, computes (x · Bᵀ) · Aᵀ, scales it by the literal 4 and adds: at (b, s, o)

      (∑ₖ x[b,s,k] · W[o,k]  +  bias[o])  +  (∑ⱼ (∑ₖ x[b,s,k] · B[j,k]) · A[o,j]) · 4,

  which is `LoRA.layer` of its arguments, term for term.
-/
import proofs.«140179_j60129542144689_1_alg».proof.Proof.Gen.ReferenceIdeal.Read
import proofs.«140179_j60129542144689_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result is the layer of its arguments. -/
theorem result_eq (x0 : FVec Ideal S4x2048x4096 .f32) (x1 : FVec Ideal S4096x4096 .f32) (x2 : FVec Ideal S4096x8 .f32)
    (x3 : FVec Ideal S8x4096 .f32) (x4 : FVec Ideal S4096 .f32) :
    val_main_v8 (F := Ideal) x0 x1 x2 x3 x4 = LoRA.layer x0 x1 x2 x3 x4 := by
  funext i
  obtain ⟨b, s, o, rfl⟩ : ∃ (b : Fin 4) (s : Fin 2048) (o : Fin 4096), i = ix3 b s o := ⟨i 0, i 1, i 2, eq_ix3 i⟩
  have e0l : ∀ k, lidx_main_v0 (ix3 b s o) k = ix3 b s k := fun k => funext fun a => Fin.ext (by
    match a with | ⟨0, _⟩ => rfl | ⟨1, _⟩ => rfl | ⟨2, _⟩ => rfl)
  have e0r : ∀ k, ridx_main_v0 (ix3 b s o) k = ix2 o k := fun k => funext fun a => Fin.ext (by
    match a with | ⟨0, _⟩ => rfl | ⟨1, _⟩ => rfl)
  have e12 : idx_main_v1 (idx_main_v2 (ix3 b s o)) = ix1 o := funext fun a => Fin.ext (by
    match a with | ⟨0, _⟩ => rfl)
  have e5l : ∀ j, lidx_main_v5 (ix3 b s o) j = ix3 b s j := fun j => funext fun a => Fin.ext (by
    match a with | ⟨0, _⟩ => rfl | ⟨1, _⟩ => rfl | ⟨2, _⟩ => rfl)
  have e5r : ∀ j, ridx_main_v5 (ix3 b s o) j = ix2 o j := fun j => funext fun a => Fin.ext (by
    match a with | ⟨0, _⟩ => rfl | ⟨1, _⟩ => rfl)
  have e4l : ∀ (j : Fin 8) k, lidx_main_v4 (ix3 b s j) k = ix3 b s k := fun j k => funext fun a => Fin.ext (by
    match a with | ⟨0, _⟩ => rfl | ⟨1, _⟩ => rfl | ⟨2, _⟩ => rfl)
  have e4r : ∀ (j : Fin 8) k, ridx_main_v4 (ix3 b s j) k = ix2 j k := fun j k => funext fun a => Fin.ext (by
    match a with | ⟨0, _⟩ => rfl | ⟨1, _⟩ => rfl)
  rw [val_main_v8_apply, val_main_v3_apply, val_main_v7_apply, val_main_v0_apply, val_main_v2_apply, val_main_v1_apply,
    val_main_v5_apply, val_main_v6_apply, val_main_cst_apply]
  simp only [val_main_v4_apply, e0l, e0r, e12, e5l, e5r, e4l, e4r]
  rfl

end Cert.ReferenceIdeal.RefValue

end
-- ==== Proof.lean ====
/-
  A linear layer with a low-rank update, tiled, against its plain reference, over the extended reals.

  The kernel program flattens the activations x : [4, 2048, 4096] to [8192, 4096], and one tiled call computes,
  tile by tile (512 rows by 1024 output features, the whole contraction axis in every tile),

      out[r, o] = (∑ₖ x[r,k] · W[o,k]  +  bias[o])  +  (∑ⱼ (∑ₖ x[r,k] · B[j,k]) · A[o,j]) · 4

  and reshapes the result back to [4, 2048, 4096].  The reference computes the same expression with three
  whole-array products over the three-axis activations.  At the ideal values a change of float format is the
  identity and a matrix product is the plain sum of products, so both results are the one function
  `LoRA.layer` of the arguments (Proof/Spec.lean), entry by entry: the additions are grouped the same way and
  every product has its factors in the same order on both sides, so nothing beyond re-indexing the sums (row
  b · 2048 + s of the flattened arrays is row (b, s)) joins them; the precondition is not used.

  The modules: Proof/Spec.lean (the function; flattening and unflattening), Proof/MatmulRows.lean (each of the
  body's three products at an entry), Proof/Payload.lean (the body's stored value at an entry), Proof/Blocks.lean
  (what a grid point writes back is its block of the function; the blocks tile the output), Proof/HostSide.lean
  (the host operations around the call; the kernel program's run), Proof/Reference.lean (the reference's result
  at an entry).  Here the five claims are assembled: the three frames are the generated frame runs, the
  idealization rewrote nothing, and the two runs end at the same function of arguments that agree.
-/
import proofs.«140179_j60129542144689_1_alg».proof.Defs
import proofs.«140179_j60129542144689_1_alg».proof.Proof.Gen.Kernel
import proofs.«140179_j60129542144689_1_alg».proof.Proof.Gen.Kernel.Skeleton
import proofs.«140179_j60129542144689_1_alg».proof.Proof.Gen.Kernel.Launch
import proofs.«140179_j60129542144689_1_alg».proof.Proof.Gen.Kernel.Points
import proofs.«140179_j60129542144689_1_alg».proof.Proof.Gen.Kernel.Frame
import proofs.«140179_j60129542144689_1_alg».proof.Proof.Gen.KernelIdeal
import proofs.«140179_j60129542144689_1_alg».proof.Proof.Gen.KernelIdeal.Skeleton
import proofs.«140179_j60129542144689_1_alg».proof.Proof.Gen.KernelIdeal.Launch
import proofs.«140179_j60129542144689_1_alg».proof.Proof.Gen.KernelIdeal.Points
import proofs.«140179_j60129542144689_1_alg».proof.Proof.Gen.KernelIdeal.Frame
import proofs.«140179_j60129542144689_1_alg».proof.Proof.Gen.ReferenceIdeal
import proofs.«140179_j60129542144689_1_alg».proof.Proof.Gen.ReferenceIdeal.Run
import proofs.«140179_j60129542144689_1_alg».proof.Proof.Gen.ReferenceIdeal.Read
import proofs.«140179_j60129542144689_1_alg».proof.Proof.Gen.Pre_finite_inputs
import proofs.«140179_j60129542144689_1_alg».proof.Proof.HostSide
import proofs.«140179_j60129542144689_1_alg».proof.Proof.Reference
import Idealize.ShloMosaic.Adequacy
import Idealize.ShloMosaic.Init

noncomputable section

namespace Cert.Proof

open Idealize.ShloMosaic Idealize.SL.Sem Cert.Kernel

/-- The word-level kernel program terminates, faults nowhere and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: the idealized program is the program's own text read at the ideal values. -/
theorem preserves : Cert.preserves_Kernel_KernelIdeal := trivial

/-- From memories agreeing on the arguments, both idealized programs end with the layer of the arguments as
    their result. -/
theorem algebraic : Cert.algebraic_KernelIdeal_ReferenceIdeal := by
  intro m ρ m' ρ' _ hagree
  refine ⟨fun c => Cert.LoRA.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.HostSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
